-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S2x128x128 : Shape := ⟨3, ![2, 128, 128]⟩
abbrev S384x128 : Shape := ⟨2, ![384, 128]⟩
abbrev S384 : Shape := ⟨1, ![384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg5 : FVec F S384x128 .f32) (main_arg6 : FVec F S384 .f32) (main_arg7 : FVec F S384 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S1600000 .f32) (main_arg3 : FVec F S2x128x128 .f32) (main_arg4 : FVec F S384x128 .f32) (main_arg5 : FVec F S384x128 .f32) (main_arg6 : FVec F S384 .f32) (main_arg7 : FVec F S384 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S2x128x128 .f32 := Host.absf main_arg3
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S2x128x128 : Shape := ⟨3, ![2, 128, 128]⟩
abbrev S384x128 : Shape := ⟨2, ![384, 128]⟩
abbrev S384 : Shape := ⟨1, ![384]⟩
abbrev S1x1600000 : Shape := ⟨2, ![1, 1600000]⟩
abbrev S128x384 : Shape := ⟨2, ![128, 384]⟩
abbrev S1x384 : Shape := ⟨2, ![1, 384]⟩
abbrev S1x128x128 : Shape := ⟨3, ![1, 128, 128]⟩
abbrev S128x128 : Shape := ⟨2, ![128, 128]⟩
abbrev S1000x128 : Shape := ⟨2, ![1000, 128]⟩
abbrev S_ : Shape := ⟨0, ![]⟩
abbrev S1600000x1 : Shape := ⟨2, ![1600000, 1]⟩
abbrev S1600000x128 : Shape := ⟨2, ![1600000, 128]⟩
abbrev S1000x384 : Shape := ⟨2, ![1000, 384]⟩

abbrev nBuf : Space → Nat
  | .hbm => 56
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S2x128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S128x384, .f32⟩
  | .hbm, ⟨13, _⟩ => ⟨S128x384, .f32⟩
  | .hbm, ⟨14, _⟩ => ⟨S1x384, .f32⟩
  | .hbm, ⟨15, _⟩ => ⟨S1x384, .f32⟩
  | .hbm, ⟨16, _⟩ => ⟨S1x128x128, .f32⟩
  | .hbm, ⟨17, _⟩ => ⟨S128x128, .f32⟩
  | .hbm, ⟨18, _⟩ => ⟨S100000x128, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S1600000x1, .f32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S1x128x128, .f32⟩
  | .hbm, ⟨37, _⟩ => ⟨S128x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S1600000x1, .f32⟩
  | .hbm, ⟨49, _⟩ => ⟨S1600000x128, .f32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S128x384, .f32⟩
  | .local _ .vmem, ⟨10, _⟩ => ⟨S128x384, .f32⟩
  | .local _ .vmem, ⟨11, _⟩ => ⟨S1x384, .f32⟩
  | .local _ .vmem, ⟨12, _⟩ => ⟨S1x384, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S128x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S128x384, .f32⟩
  | .local _ .vmem, ⟨25, _⟩ => ⟨S128x384, .f32⟩
  | .local _ .vmem, ⟨26, _⟩ => ⟨S1x384, .f32⟩
  | .local _ .vmem, ⟨27, _⟩ => ⟨S1x384, .f32⟩
  | .local _ .vmem, ⟨28, _⟩ => ⟨S1000x128, .f32⟩
  | .local _ .vmem, ⟨29, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_1 : Ref sig .tc := ⟨.hbm, 39, rfl⟩
abbrev main_v28 : Ref sig .tc := ⟨.hbm, 40, rfl⟩
abbrev main_v29 : Ref sig .tc := ⟨.hbm, 41, rfl⟩
abbrev main_c_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S384x128_S128x384_1_0 : S384x128.Transposes [1, 0] S128x384
  shapeCasts_S384_S1x384 : S384.ShapeCasts S1x384
  slices_S2x128x128_S1x128x128_0_0_0 : S2x128x128.Slices ![0, 0, 0] S1x128x128
  shapeCasts_S1x128x128_S128x128 : S1x128x128.ShapeCasts S128x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S1000x128_S1000x128 : S1000x128.ShapeCasts S1000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1000x384 : S1x384.Broadcasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  slices_S2x128x128_S1x128x128_1_0_0 : S2x128x128.Slices ![1, 0, 0] S1x128x128
  dot_S1000x128_S128x128_S1000x128_1_0_0_1_n_n_wf : DotDims.WF S1000x128 S128x128 S1000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1000x128_S128x384_S1000x384_1_0_0_1_n_n_wf : DotDims.WF S1000x128 S128x384 S1000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S100000x128.size a
  hwx1_1 : ∀ i : grid1.Coords, EltTy.bits .f32 = 32 ∨ (Rect.block (s := S100000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S100000x128.size a
  hwx1_6 : ∀ i : grid1.Coords, EltTy.bits .f32 = 32 ∨ (Rect.block (s := S100000x128) S1000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S100000x128.size a
  hwx2_0 : ∀ i : grid2.Coords, EltTy.bits .f32 = 32 ∨ (Rect.block (s := S100000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S100000x128.size a
  hwx2_2 : ∀ i : grid2.Coords, EltTy.bits .f32 = 32 ∨ (Rect.block (s := S100000x128) S1000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S100000x128.size a
  hwx3_0 : ∀ i : grid3.Coords, EltTy.bits .f32 = 32 ∨ (Rect.block (s := S100000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S100000x128.size a
  hwx3_1 : ∀ i : grid3.Coords, EltTy.bits .f32 = 32 ∨ (Rect.block (s := S100000x128) S1000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x384.size a ≤ S128x384.size a
  hwx3_2 : ∀ i : grid3.Coords, EltTy.bits .f32 = 32 ∨ (Rect.block (s := S128x384) S128x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x384.size a ≤ S128x384.size a
  hwx3_3 : ∀ i : grid3.Coords, EltTy.bits .f32 = 32 ∨ (Rect.block (s := S128x384) S128x384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x384.size a ≤ S1x384.size a
  hwx3_4 : ∀ i : grid3.Coords, EltTy.bits .f32 = 32 ∨ (Rect.block (s := S1x384) S1x384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x128.size a ≤ S100000x128.size a
  hwx3_6 : ∀ i : grid3.Coords, EltTy.bits .f32 = 32 ∨ (Rect.block (s := S100000x128) S1000x128.size (cc3_transform_6 i) (hinb3_6 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v24) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v40) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S128x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S128x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v6) S1x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v41) S1000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S2x128x128 : Shape := ⟨3, ![2, 128, 128]⟩
abbrev S384x128 : Shape := ⟨2, ![384, 128]⟩
abbrev S384 : Shape := ⟨1, ![384]⟩
abbrev S1x1600000 : Shape := ⟨2, ![1, 1600000]⟩
abbrev S1x128x128 : Shape := ⟨3, ![1, 128, 128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S128x384 : Shape := ⟨2, ![128, 384]⟩
abbrev S100000x384 : Shape := ⟨2, ![100000, 384]⟩
abbrev S1x384 : Shape := ⟨2, ![1, 384]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S2x128x128, .f32⟩
  | 4 => ⟨S384x128, .f32⟩
  | 5 => ⟨S384x128, .f32⟩
  | 6 => ⟨S384, .f32⟩
  | 7 => ⟨S384, .f32⟩
  | 8 => ⟨S1x1600000, .i32⟩
  | 9 => ⟨S1600000, .i32⟩
  | 10 => ⟨S1x1600000, .i32⟩
  | 11 => ⟨S1600000, .i32⟩
  | 12 => ⟨S1x128x128, .f32⟩
  | 13 => ⟨S128x128, .f32⟩
  | 14 => ⟨S100000x128, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S1600000x1, .f32⟩
  | 25 => ⟨S1600000x128, .f32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S128x384, .f32⟩
  | 32 => ⟨S100000x384, .f32⟩
  | 33 => ⟨S1x384, .f32⟩
  | 34 => ⟨S100000x384, .f32⟩
  | 35 => ⟨S100000x384, .f32⟩
  | 36 => ⟨S128x384, .f32⟩
  | 37 => ⟨S100000x384, .f32⟩
  | 38 => ⟨S1x384, .f32⟩
  | 39 => ⟨S100000x384, .f32⟩
  | 40 => ⟨S100000x384, .f32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S100000x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S100000x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S100000x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S100000x128, .f32⟩
  | 73 => ⟨S100000x128, .f32⟩
  | 74 => ⟨S1x128x128, .f32⟩
  | 75 => ⟨S128x128, .f32⟩
  | 76 => ⟨S100000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S1600000x1, .f32⟩
  | 87 => ⟨S1600000x128, .f32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S128x384, .f32⟩
  | 94 => ⟨S100000x384, .f32⟩
  | 95 => ⟨S1x384, .f32⟩
  | 96 => ⟨S100000x384, .f32⟩
  | 97 => ⟨S100000x384, .f32⟩
  | 98 => ⟨S128x384, .f32⟩
  | 99 => ⟨S100000x384, .f32⟩
  | 100 => ⟨S1x384, .f32⟩
  | 101 => ⟨S100000x384, .f32⟩
  | 102 => ⟨S100000x384, .f32⟩
  | 103 => ⟨S100000x128, .f32⟩
  | 104 => ⟨S100000x128, .f32⟩
  | 105 => ⟨S100000x128, .f32⟩
  | 106 => ⟨S100000x128, .f32⟩
  | 107 => ⟨S100000x128, .f32⟩
  | 108 => ⟨S100000x128, .f32⟩
  | 109 => ⟨S100000x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S100000x128, .f32⟩
  | 6 => ⟨S100000x128, .f32⟩
  | 7 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_1 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_6 : Ref sig .tc := ⟨.hbm, 77, rfl⟩
abbrev main_v61 : Ref sig .tc := ⟨.hbm, 78, rfl⟩
abbrev main_v62 : Ref sig .tc := ⟨.hbm, 79, rfl⟩
abbrev main_c_7 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_9 : Ref sig .tc := ⟨.hbm, 112, rfl⟩
abbrev main_v93 : Ref sig .tc := ⟨.hbm, 113, rfl⟩
abbrev main_v94 : Ref sig .tc := ⟨.hbm, 114, rfl⟩
abbrev main_cst_10 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_11 : Ref sig .tc := ⟨.hbm, 121, rfl⟩
abbrev main_v100 : Ref sig .tc := ⟨.hbm, 122, rfl⟩
abbrev main_v101 : Ref sig .tc := ⟨.hbm, 123, rfl⟩
abbrev main_cst_12 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_13 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S2x128x128_S1x128x128_0_0_0 : S2x128x128.Slices ![0, 0, 0] S1x128x128
  shapeCasts_S1x128x128_S128x128 : S1x128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  slices_S2x128x128_S1x128x128_1_0_0 : S2x128x128.Slices ![1, 0, 0] S1x128x128
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x384_S100000x384_1_0_0_1_n_n_wf : DotDims.WF S100000x128 S128x384 S100000x384 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf

class Facts : Prop extends Facts₀ where

variable [Facts]
-- ==== Proof.Spec.lean ====
/-
  Two rounds of gated graph convolution on 100000 nodes with 128 features, written once as whole-array
  functions of the eight inputs. One round takes the node states `h`:
    m   = h · W                                   (a 128 × 128 linear map per node)
    agg = Σ over edges e with dst e = v of  m[src e] · weight e     (gather, scale, scatter-add)
    h'  = GRU cell of (agg, h): with gi = agg · w_ihᵀ + b_ih and gh = h · w_hhᵀ + b_hh split in three
          column blocks (reset, update, new),
            r = σ(gi₀ + gh₀),  z = σ(gi₁ + gh₁),  n = tanh(gi₂ + r · gh₂),  h' = (1 − z) · n + z · h,
          where σ(x) = 1 / (1 + e^(−x)).
  Every operation is the exact one on the extended reals. The edge stage (index wrap-around of negative
  sources, gather, scaling, scatter-add into zeros) is kept as one opaque term: both programs apply the same one.
-/
import proofs.«102423_j56985626083974_1_alg».proof.Proof.Gen.ReferenceIdeal
import Idealize.ShloMosaic.PureOps.Ideal

noncomputable section

namespace Cert.GatedGraph

open Cert.ReferenceIdeal Cert.ReferenceIdeal.Gen Idealize.ShloMosaic

/-- Node states: one row of 128 extended reals per node. -/
abbrev States := FVec Ideal S100000x128 .f32
/-- One integer per edge. -/
abbrev EdgeInts := (⟨S1600000, .i32⟩ : BufTy).Contents (Elt Ideal)

/-- The all-ones array (the literal 1.0 splat over the node states). -/
def ones : States := broadcastInDim S100000x128 ![] bcast_S_S100000x128 (constant S_ .f32 0x3F800000#32)

/-- The linear map of a round: row `v` of `h · W` is `Σ_k h[v,k] · W[k,·]`. -/
def lin (h : States) (w : FVec Ideal S128x128 .f32) : States :=
  Host.dotGeneral dot_S100000x128_S128x128_S100000x128_1_0_0_1_n_n none h w

/-- Layer `l`'s 128 × 128 matrix out of the stacked weights (a unit slice, then the unit axis dropped). -/
def weight0 (w3 : FVec Ideal S2x128x128 .f32) : FVec Ideal S128x128 .f32 :=
  shapeCast _ (extractStridedSlice S1x128x128 ![0, 0, 0] w3 slices_S2x128x128_S1x128x128_0_0_0) shapeCasts_S1x128x128_S128x128
def weight1 (w3 : FVec Ideal S2x128x128 .f32) : FVec Ideal S128x128 .f32 :=
  shapeCast _ (extractStridedSlice S1x128x128 ![1, 0, 0] w3 slices_S2x128x128_S1x128x128_1_0_0) shapeCasts_S1x128x128_S128x128

/-- Row `r` of the edge list as a flat vector (row 0: sources, row 1: destinations). -/
def edgeRow0 (ei : (⟨S2x1600000, .i32⟩ : BufTy).Contents (Elt Ideal)) : EdgeInts :=
  shapeCast _ (extractStridedSlice S1x1600000 ![0, 0] ei slices_S2x1600000_S1x1600000_0_0) shapeCasts_S1x1600000_S1600000
def edgeRow1 (ei : (⟨S2x1600000, .i32⟩ : BufTy).Contents (Elt Ideal)) : EdgeInts :=
  shapeCast _ (extractStridedSlice S1x1600000 ![1, 0] ei slices_S2x1600000_S1x1600000_1_0) shapeCasts_S1x1600000_S1600000

/-- The edge stage: messages `m[src e] · weight e` (a negative source index counted from the end) summed
    into their destination rows, starting from zeros. -/
def aggregate (mm : States) (src dst : EdgeInts) (ew : FVec Ideal S1600000 .f32) : States :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (Host.gather gather_S100000x128_S1600000x1_S1600000x128_1_0_n_n_0_1_1128 mm
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 ew)))

/-- The three gates' pre-activations of one operand: `a · wT + b`, the bias row repeated down the nodes. -/
def gates (a : States) (wT : FVec Ideal S128x384 .f32) (b : FVec Ideal S1x384 .f32) : FVec Ideal S100000x384 .f32 :=
  addf (Host.dotGeneral dot_S100000x128_S128x384_S100000x384_1_0_0_1_n_n none a wT)
    (broadcastInDim S100000x384 ![0, 1] bcast_S1x384_S100000x384_0_1 b)

/-- The logistic function of a sum, spelled `1 / (1 + e^(−(u + v)))`. -/
def sigm (u v : States) : States :=
  Host.divf ones (addf ones (Host.exp (Host.negf (addf u v))))

/-- The GRU cell on whole arrays, from the two operands' gate pre-activations `gi`, `gh` and the old state. -/
def cellOf (gi gh : FVec Ideal S100000x384 .f32) (h : States) : States :=
  addf
    (mulf (subf ones (sigm (extractStridedSlice S100000x128 ![0, 128] gi slices_S100000x384_S100000x128_0_128)
                           (extractStridedSlice S100000x128 ![0, 128] gh slices_S100000x384_S100000x128_0_128)))
      (Host.tanh (addf (extractStridedSlice S100000x128 ![0, 256] gi slices_S100000x384_S100000x128_0_256)
        (mulf (sigm (extractStridedSlice S100000x128 ![0, 0] gi slices_S100000x384_S100000x128_0_0)
                    (extractStridedSlice S100000x128 ![0, 0] gh slices_S100000x384_S100000x128_0_0))
          (extractStridedSlice S100000x128 ![0, 256] gh slices_S100000x384_S100000x128_0_256)))))
    (mulf (sigm (extractStridedSlice S100000x128 ![0, 128] gi slices_S100000x384_S100000x128_0_128)
                (extractStridedSlice S100000x128 ![0, 128] gh slices_S100000x384_S100000x128_0_128)) h)

/-- The GRU cell: new states from the aggregated messages `a` and the old states `h`. -/
def cell (a h : States) (wiT whT : FVec Ideal S128x384 .f32) (bi bh : FVec Ideal S1x384 .f32) : States :=
  cellOf (gates a wiT bi) (gates h whT bh) h

/-- The GRU's matrices transposed to 128 × 384, and its biases as one-row matrices. -/
def wT (w : FVec Ideal S384x128 .f32) : FVec Ideal S128x384 .f32 := transpose S128x384 [1, 0] w transposes_S384x128_S128x384_1_0
def biasRow (b : FVec Ideal S384 .f32) : FVec Ideal S1x384 .f32 := broadcastInDim S1x384 ![1] bcast_S384_S1x384_1 b

/-- One round. -/
def round (h : States) (w : FVec Ideal S128x128 .f32) (src dst : EdgeInts) (ew : FVec Ideal S1600000 .f32)
    (wiT whT : FVec Ideal S128x384 .f32) (bi bh : FVec Ideal S1x384 .f32) : States :=
  cell (aggregate (lin h w) src dst ew) h wiT whT bi bh

/-- Both rounds, from the eight inputs. -/
def net (x : States) (ei : (⟨S2x1600000, .i32⟩ : BufTy).Contents (Elt Ideal)) (ew : FVec Ideal S1600000 .f32)
    (w3 : FVec Ideal S2x128x128 .f32) (wih whh : FVec Ideal S384x128 .f32) (bih bhh : FVec Ideal S384 .f32) : States :=
  round (round x (weight0 w3) (edgeRow0 ei) (edgeRow1 ei) ew (wT wih) (wT whh) (biasRow bih) (biasRow bhh))
    (weight1 w3) (edgeRow0 ei) (edgeRow1 ei) ew (wT wih) (wT whh) (biasRow bih) (biasRow bhh)

end Cert.GatedGraph

end
-- ==== Proof.RefValue.lean ====
/-
  The reference program computes `net` of its eight inputs: its operations, composed in order, are the two
  rounds as the specification spells them, term for term.
-/
import proofs.«102423_j56985626083974_1_alg».proof.Proof.Spec
import proofs.«102423_j56985626083974_1_alg».proof.Proof.Gen.ReferenceIdeal.Run

set_option maxRecDepth 16384

noncomputable section

namespace Cert.GatedGraph

open Cert.ReferenceIdeal Cert.ReferenceIdeal.Gen Idealize.ShloMosaic Idealize.ShloMosaic.TcCoe Idealize.SL.Sem

/-- Every weakly fair execution of the reference ends with its result at `net` of the launch contents of its
    arguments, and the arguments as launched. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v111)
        = net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans rfl, (h c).2⟩) (Cert.ReferenceIdeal.Value.run (F := Ideal) m ρ)

end Cert.GatedGraph

end
-- ==== Proof.KernelRun.lean ====
/-
  The idealized kernel program's run, with its result named. Its @main is four grid launches among stretches
  of host operations; the contents of the TensorCore's buffers at the eight boundaries are a fold from the launch
  memory (`Gen.W0` … `Gen.W8`), and every weakly fair execution ends with every unscoped buffer at the last
  boundary's contents. Read at the result buffer and at the eight arguments: the result is `W8` there, the
  arguments are as launched.
-/
import proofs.«102423_j56985626083974_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v41) = W8 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Fold

end
-- ==== Proof.Pointwise.lean ====
/-
  One element of a block. A block of 1000 consecutive node rows, starting at row `r0`, is all a grid point
  sees of the node arrays; the weights and biases it sees whole. Entry (p, q) of what the kernel body computes
  from such a block is entry (r0 + p, q) of the whole-array function: a row of `h · W` or of the GRU cell depends
  only on the same row of its node operands, the contraction over the 128 features is the same sum, and the
  kernel's logistic function is the quotient `1 / (1 + e^(−x))` the whole-array function spells.
-/
import proofs.«102423_j56985626083974_1_alg».proof.Proof.Spec
import proofs.«102423_j56985626083974_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.GatedGraph

open Idealize.ShloMosaic Idealize.ShloMosaic.ValueIdx
open Cert.KernelIdeal (S1000x128 S128x128 S128x384 S1x384 S100000x128)

/-- One row of a plain matrix product. For dimension numbers that contract the left operand's axis 1 against the
    right operand's axis 0, with no batch axis, the contraction's sum at output entry (p, q) is the sum over the
    shared extent of left (p, k) times right (k, q). -/
theorem dot_row {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  -- the contraction shape has one axis, of extent K
  have hr : d.contr.rank = 1 := by rw [d.rank_contr, hlc]; rfl
  have hs : d.contr.size ⟨0, by omega⟩ = K := by
    have := d.size_contr 0 (by rw [hlc]; exact Nat.one_pos)
    rw [this]; simp only [hlc]; rfl
  -- so the sum runs over that axis' coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (p, k) …
  have hL : d.lhsIdx (ix2 p q) ((contrEquiv1 d K hr hs).symm k) = ix2 p k := by
    funext a
    apply Fin.ext
    match a with
    | ⟨0, _⟩ =>
      obtain ⟨lc, rc, ln, rn, lb, rb, wf⟩ := d
      simp only at hlc hrc hln hrn hlb hrb
      subst hlc hrc hln hrn hlb hrb
      simp [DotDims.lhsIdx]; rfl
    | ⟨1, _⟩ => exact (d.lhsIdx_val_of_single hlc _ _).trans hk
  -- … and the right one at (k, q)
  have hR : d.rhsIdx (ix2 p q) ((contrEquiv1 d K hr hs).symm k) = ix2 k q := by
    funext a
    apply Fin.ext
    match a with
    | ⟨0, _⟩ => exact (d.rhsIdx_val_of_single hrc _ _).trans hk
    | ⟨1, _⟩ =>
      obtain ⟨lc, rc, ln, rn, lb, rb, wf⟩ := d
      simp only at hlc hrc hln hrn hlb hrb
      subst hlc hrc hln hrn hlb hrb
      simp [DotDims.rhsIdx]; rfl
  rw [hL, hR]

/-- The kernel's matrix product into a zero accumulator, at entry (p, q). -/
theorem matmul_row {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) :=
  (Ideal.matmul_constant_zero_apply d prec l r (ix2 p q)).trans (dot_row d hlc hrc hln hrn hlb hrb l r p q)

/-- The reference's matrix product, at entry (p, q). -/
theorem dotGeneral_row {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (dot_row d hlc hrc hln hrn hlb hrb l r p q)

/-- Entry (v, q) of the whole-array linear map is the sum over the 128 features. -/
theorem lin_apply (h : States) (w : FVec Ideal S128x128 .f32) (v : Fin 100000) (q : Fin 128) :
    lin h w (ix2 v q) = ∑ k : Fin 128, h (ix2 v k) * w (ix2 k q) :=
  dotGeneral_row _ rfl rfl rfl rfl rfl rfl none .single h w v q

/-- The linear map on a block (first round's kernel). -/
theorem lin_block0 (h : States) (w : FVec Ideal S128x128 .f32) (xh : Vec Ideal S1000x128 .f32) (r0 : Nat) (hr0 : r0 + 1000 ≤ 100000)
    (hx : ∀ (p : Fin 1000) (k : Fin 128), xh (ix2 p k) = h (ix2 ⟨r0 + p.val, by have := p.isLt; omega⟩ k))
    (p : Fin 1000) (q : Fin 128) :
    Cert.KernelIdeal.Gen.k0_pay1 (F := Ideal) xh w (ix2 p q) = lin h w (ix2 ⟨r0 + p.val, by have := p.isLt; omega⟩ q) := by
  rw [lin_apply]
  unfold Cert.KernelIdeal.Gen.k0_pay1
  refine (matmul_row _ rfl rfl rfl rfl rfl rfl none _ _ p q).trans ?_
  refine Finset.sum_congr rfl fun k _ => ?_
  rw [shapeCast_self]
  exact congrArg (· * w (ix2 k q)) (hx p k)

/-- The linear map on a block (second round's kernel). -/
theorem lin_block2 (h : States) (w : FVec Ideal S128x128 .f32) (xh : Vec Ideal S1000x128 .f32) (r0 : Nat) (hr0 : r0 + 1000 ≤ 100000)
    (hx : ∀ (p : Fin 1000) (k : Fin 128), xh (ix2 p k) = h (ix2 ⟨r0 + p.val, by have := p.isLt; omega⟩ k))
    (p : Fin 1000) (q : Fin 128) :
    Cert.KernelIdeal.Gen.k2_pay1 (F := Ideal) xh w (ix2 p q) = lin h w (ix2 ⟨r0 + p.val, by have := p.isLt; omega⟩ q) := by
  rw [lin_apply]
  unfold Cert.KernelIdeal.Gen.k2_pay1
  refine (matmul_row _ rfl rfl rfl rfl rfl rfl none _ _ p q).trans ?_
  refine Finset.sum_congr rfl fun k _ => ?_
  rw [shapeCast_self, shapeCast_self]
  exact congrArg (· * w (ix2 k q)) (hx p k)

/-! ### The GRU cell at one element -/

/-- The word 0x3F800000 is the number one. -/
theorem one_lit : Ideal.ofBits .f32 0x3F800000#32 = 1 := IdealRules.sign_bit.ideal_onePat .f32

/-- The GRU cell on numbers: from the three gate pre-activations of each operand and the old state. -/
def gruElt (i0 h0 i1 h1 i2 h2 x : EReal) : EReal :=
  (1 - Ideal.logistic (i1 + h1)) * Ideal.tanh (i2 + Ideal.logistic (i0 + h0) * h2) + Ideal.logistic (i1 + h1) * x

/-- Column `q` of the reset, update and new gate among the 384 gate columns. -/
abbrev gcol (o : Nat) (ho : o + 128 ≤ 384) (q : Fin 128) : Fin 384 := ⟨o + q.val, by have := q.isLt; omega⟩

/-- The all-ones array reads one everywhere. -/
theorem ones_apply (i : S100000x128.Idx) : ones i = 1 := one_lit

/-- The reference's logistic function of a sum, at an index. -/
theorem sigm_apply (u v : States) (i : S100000x128.Idx) : sigm u v i = Ideal.logistic (u i + v i) := by
  show Ideal.div (ones i) (ones i + Ideal.exp (-(u i + v i))) = _
  rw [ones_apply]; rfl

/-- The reference's hyperbolic tangent, at an index. -/
theorem hostTanh_apply {s : Shape} (x : FVec Ideal s .f32) (i : s.Idx) : Host.tanh x i = Ideal.tanh (x i) := rfl

/-- The reference's GRU cell from gate pre-activations, at entry (v, q). -/
theorem cellOf_apply (gi gh : FVec Ideal Cert.ReferenceIdeal.S100000x384 .f32) (h : States) (v : Fin 100000) (q : Fin 128) :
    cellOf gi gh h (ix2 v q)
      = gruElt (gi (ix2 v (gcol 0 (by omega) q))) (gh (ix2 v (gcol 0 (by omega) q)))
          (gi (ix2 v (gcol 128 (by omega) q))) (gh (ix2 v (gcol 128 (by omega) q)))
          (gi (ix2 v (gcol 256 (by omega) q))) (gh (ix2 v (gcol 256 (by omega) q))) (h (ix2 v q)) := by
  unfold cellOf gruElt
  simp only [addf_apply, mulf_apply, subf_apply, sigm_apply, ones_apply, hostTanh_apply]
  rw [slice2_axis1_apply 0 gi _ v q (gcol 0 (by omega) q) rfl, slice2_axis1_apply 0 gh _ v q (gcol 0 (by omega) q) rfl,
    slice2_axis1_apply 128 gi _ v q (gcol 128 (by omega) q) rfl, slice2_axis1_apply 128 gh _ v q (gcol 128 (by omega) q) rfl,
    slice2_axis1_apply 256 gi _ v q (gcol 256 (by omega) q) rfl, slice2_axis1_apply 256 gh _ v q (gcol 256 (by omega) q) rfl]

/-! ### The gate pre-activations of a block -/

/-- The kernel's gate pre-activations of a block: the block times the 128 × 384 matrix, plus the bias row. -/
def kgates (x : Vec Ideal S1000x128 .f32) (w : FVec Ideal S128x384 .f32) (b : FVec Ideal S1x384 .f32) :
    FVec Ideal Cert.KernelIdeal.S1000x384 .f32 :=
  addf (matmul Cert.KernelIdeal.dot_S1000x128_S128x384_S1000x384_1_0_0_1_n_n none
      (truncf .bf16 x Cert.KernelIdeal.Gen.bitsLt_bf16_f32) (truncf .bf16 w Cert.KernelIdeal.Gen.bitsLt_bf16_f32)
      (constant Cert.KernelIdeal.S1000x384 .f32 0x00000000#32))
    (broadcastTo Cert.KernelIdeal.S1000x384 b Cert.KernelIdeal.Gen.broadcasts_S1x384_S1000x384)

/-- Entry (p, j) of a block's gate pre-activations is entry (r0 + p, j) of the whole array's. -/
theorem kgates_block (a : States) (w : FVec Ideal S128x384 .f32) (b : FVec Ideal S1x384 .f32)
    (x : Vec Ideal S1000x128 .f32) (r0 : Nat) (hr0 : r0 + 1000 ≤ 100000)
    (hx : ∀ (p : Fin 1000) (k : Fin 128), x (ix2 p k) = a (ix2 ⟨r0 + p.val, by have := p.isLt; omega⟩ k))
    (p : Fin 1000) (j : Fin 384) :
    kgates x w b (ix2 p j) = gates a w b (ix2 ⟨r0 + p.val, by have := p.isLt; omega⟩ j) := by
  unfold kgates gates
  rw [addf_apply, addf_apply]
  congr 1
  · refine (matmul_row _ rfl rfl rfl rfl rfl rfl none _ _ p j).trans ?_
    refine Eq.trans ?_ (dotGeneral_row _ rfl rfl rfl rfl rfl rfl none .single a w _ j).symm
    exact Finset.sum_congr rfl fun k _ => congrArg (· * w (ix2 k j)) (hx p k)
  · refine (broadcastTo_1b_ab_apply b _ p j).trans ?_
    refine (broadcastInDim_apply _ _ b _ (ix2 (0 : Fin 1) j) fun ax => ?_).symm
    match ax with
    | ⟨0, _⟩ => rfl
    | ⟨1, _⟩ => rfl

/-! ### The kernel's GRU cell at one element -/

/-- The kernel's logistic function, at an index. -/
theorem logistic_apply {s : Shape} (x : FVec Ideal s .f32) (i : s.Idx) : logistic x i = Ideal.logistic (x i) := rfl
/-- The kernel's hyperbolic tangent, at an index. -/
theorem tanh_apply {s : Shape} (x : FVec Ideal s .f32) (i : s.Idx) : Idealize.ShloMosaic.tanh x i = Ideal.tanh (x i) := rfl

/-- The kernel's GRU cell from gate pre-activations of a block, at entry (p, q). -/
theorem kcell_apply (g1 g2 : FVec Ideal Cert.KernelIdeal.S1000x384 .f32) (x : Vec Ideal S1000x128 .f32) (p : Fin 1000) (q : Fin 128) :
    addf
      (mulf
        (subf (broadcast S1000x128 (Scalar.ofBits .f32 0x3F800000#32))
          (logistic (addf (extractStridedSlice S1000x128 ![0, 128] g1 Cert.KernelIdeal.Gen.slices_S1000x384_o0_128_S1000x128)
            (extractStridedSlice S1000x128 ![0, 128] g2 Cert.KernelIdeal.Gen.slices_S1000x384_o0_128_S1000x128))))
        (Idealize.ShloMosaic.tanh (addf (extractStridedSlice S1000x128 ![0, 256] g1 Cert.KernelIdeal.Gen.slices_S1000x384_o0_256_S1000x128)
          (mulf (logistic (addf (extractStridedSlice S1000x128 ![0, 0] g1 Cert.KernelIdeal.Gen.slices_S1000x384_o0_0_S1000x128)
              (extractStridedSlice S1000x128 ![0, 0] g2 Cert.KernelIdeal.Gen.slices_S1000x384_o0_0_S1000x128)))
            (extractStridedSlice S1000x128 ![0, 256] g2 Cert.KernelIdeal.Gen.slices_S1000x384_o0_256_S1000x128)))))
      (mulf (logistic (addf (extractStridedSlice S1000x128 ![0, 128] g1 Cert.KernelIdeal.Gen.slices_S1000x384_o0_128_S1000x128)
          (extractStridedSlice S1000x128 ![0, 128] g2 Cert.KernelIdeal.Gen.slices_S1000x384_o0_128_S1000x128))) x)
      (ix2 p q)
      = gruElt (g1 (ix2 p (gcol 0 (by omega) q))) (g2 (ix2 p (gcol 0 (by omega) q)))
          (g1 (ix2 p (gcol 128 (by omega) q))) (g2 (ix2 p (gcol 128 (by omega) q)))
          (g1 (ix2 p (gcol 256 (by omega) q))) (g2 (ix2 p (gcol 256 (by omega) q))) (x (ix2 p q)) := by
  unfold gruElt
  simp only [addf_apply, mulf_apply, subf_apply, logistic_apply, tanh_apply, broadcast_apply]
  rw [slice2_axis1_apply 0 g1 _ p q (gcol 0 (by omega) q) rfl, slice2_axis1_apply 0 g2 _ p q (gcol 0 (by omega) q) rfl,
    slice2_axis1_apply 128 g1 _ p q (gcol 128 (by omega) q) rfl, slice2_axis1_apply 128 g2 _ p q (gcol 128 (by omega) q) rfl,
    slice2_axis1_apply 256 g1 _ p q (gcol 256 (by omega) q) rfl, slice2_axis1_apply 256 g2 _ p q (gcol 256 (by omega) q) rfl]
  show (Ideal.ofBits .f32 0x3F800000#32 - _) * _ + _ = _
  rw [one_lit]

/-- The GRU cell on a block (first round's kernel). -/
theorem cell_block1 (a h : States) (wi wh : FVec Ideal S128x384 .f32) (bi bh : FVec Ideal S1x384 .f32)
    (xa xh : Vec Ideal S1000x128 .f32) (r0 : Nat) (hr0 : r0 + 1000 ≤ 100000)
    (hxa : ∀ (p : Fin 1000) (k : Fin 128), xa (ix2 p k) = a (ix2 ⟨r0 + p.val, by have := p.isLt; omega⟩ k))
    (hxh : ∀ (p : Fin 1000) (k : Fin 128), xh (ix2 p k) = h (ix2 ⟨r0 + p.val, by have := p.isLt; omega⟩ k))
    (p : Fin 1000) (q : Fin 128) :
    Cert.KernelIdeal.Gen.k1_pay1 (F := Ideal) xa wi bi xh wh bh xh (ix2 p q)
      = cell a h wi wh bi bh (ix2 ⟨r0 + p.val, by have := p.isLt; omega⟩ q) := by
  unfold Cert.KernelIdeal.Gen.k1_pay1
  simp only [shapeCast_self]
  refine (kcell_apply (kgates xa wi bi) (kgates xh wh bh) xh p q).trans ?_
  unfold cell
  rw [cellOf_apply, kgates_block a wi bi xa r0 hr0 hxa, kgates_block a wi bi xa r0 hr0 hxa, kgates_block a wi bi xa r0 hr0 hxa,
    kgates_block h wh bh xh r0 hr0 hxh, kgates_block h wh bh xh r0 hr0 hxh, kgates_block h wh bh xh r0 hr0 hxh, hxh p q]

/-- The GRU cell on a block (second round's kernel). -/
theorem cell_block3 (a h : States) (wi wh : FVec Ideal S128x384 .f32) (bi bh : FVec Ideal S1x384 .f32)
    (xa xh : Vec Ideal S1000x128 .f32) (r0 : Nat) (hr0 : r0 + 1000 ≤ 100000)
    (hxa : ∀ (p : Fin 1000) (k : Fin 128), xa (ix2 p k) = a (ix2 ⟨r0 + p.val, by have := p.isLt; omega⟩ k))
    (hxh : ∀ (p : Fin 1000) (k : Fin 128), xh (ix2 p k) = h (ix2 ⟨r0 + p.val, by have := p.isLt; omega⟩ k))
    (p : Fin 1000) (q : Fin 128) :
    Cert.KernelIdeal.Gen.k3_pay1 (F := Ideal) xa wi bi xh wh bh xh (ix2 p q)
      = cell a h wi wh bi bh (ix2 ⟨r0 + p.val, by have := p.isLt; omega⟩ q) := by
  unfold Cert.KernelIdeal.Gen.k3_pay1
  simp only [shapeCast_self]
  refine (kcell_apply (kgates xa wi bi) (kgates xh wh bh) xh p q).trans ?_
  unfold cell
  rw [cellOf_apply, kgates_block a wi bi xa r0 hr0 hxa, kgates_block a wi bi xa r0 hr0 hxa, kgates_block a wi bi xa r0 hr0 hxa,
    kgates_block h wh bh xh r0 hr0 hxh, kgates_block h wh bh xh r0 hr0 hxh, kgates_block h wh bh xh r0 hr0 hxh, hxh p q]

end Cert.GatedGraph

end
-- ==== Proof.Region0.lean ====
/-
  The first round's linear map as a grid launch. The launch has 100 points; point `t` reads rows
  1000·t … 1000·t + 999 of the node states and the whole 128 × 128 matrix, and writes the same rows of the output.
  Whatever the buffers hold when the launch is entered (`V`), the output array ends as `lin` of the node-state
  array and the matrix: each written block is the block of that one function, and the 100 blocks cover the array.
-/
import proofs.«102423_j56985626083974_1_alg».proof.Proof.Gen.KernelIdeal.Frame
import proofs.«102423_j56985626083974_1_alg».proof.Proof.Pointwise
import Idealize.ShloMosaic.Lib.Pipeline.Value
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- A window's block offset `(0, 0)` is the zero offset. -/
theorem zeroOff0 : (![0, 0] : Fin 2 → Nat) = fun _ => 0 := funext fun a => by fin_cases a <;> rfl

/-- The index maps over the grid: node-state and output blocks move down with the point, the matrix stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `lin` of the arrays as the launch finds them. -/
theorem flushed0 (c : Dev nD) (t : Fin cfg0.N) :
    (dat0 V c).flushed 2 t = ((cfg0.win 2).blk t).view.read (Elt Ideal) (Cert.GatedGraph.lin (V c main_arg0) (V c main_v9)) := by
  show (cfg0.win 2).cut (grid0.coords t) ((dat0 V c).after 2 t) = _
  rw [after0_2]
  unfold out0_2
  rw [View.canon_unit_zero zeroOff0]
  simp only [View.ld_unit_zero (S := S1000x128) zeroOff0, View.ld_unit_zero (S := S128x128) zeroOff0]
  have ht : t.val < 100 := lt_of_lt_of_eq t.isLt N_0
  obtain ⟨i00, i01, i10, i11, i20, i21⟩ := idx0 t
  -- the matrix window's one block is the whole matrix
  have e1 : (iblk0 V c 1 t : S128x128.Idx → EReal) = V c main_v9 := by
    funext y
    show V c main_v9 (((cfg0.win 1).blk t).view.emb y) = V c main_v9 y
    refine congrArg _ ?_
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  funext j
  obtain ⟨p, q, rfl⟩ : ∃ (p : Fin 1000) (q : Fin 128), j = ix2 p q := ⟨j 0, j 1, eq_ix2 j⟩
  -- entry (p, q) of the output block sits at row 1000·t + p of the array
  have hrow : ((cfg0.win 2).blk t).view.emb (ix2 p q) = ix2 (⟨t.val * 1000 + p.val, by have := p.isLt; omega⟩ : Fin 100000) q := by
    funext a; apply Fin.ext
    match a with
    | ⟨0, _⟩ => show win0_2.index t (0 : Fin 2) * 1000 + 1 * p.val = t.val * 1000 + p.val; omega
    | ⟨1, _⟩ => show win0_2.index t (1 : Fin 2) * 128 + 1 * q.val = q.val; omega
  show k0_pay1 (iblk0 V c 0 t) (iblk0 V c 1 t) (ix2 p q) = Cert.GatedGraph.lin (V c main_arg0) (V c main_v9) (((cfg0.win 2).blk t).view.emb (ix2 p q))
  rw [hrow, e1]
  refine Cert.GatedGraph.lin_block0 (V c main_arg0) (V c main_v9) (iblk0 V c 0 t) (t.val * 1000) (by omega) (fun p' k => ?_) p q
  -- and so does entry (p', k) of the node-state block
  show V c main_arg0 (((cfg0.win 0).blk t).view.emb (ix2 p' k)) = _
  refine congrArg _ ?_
  funext a; apply Fin.ext
  match a with
  | ⟨0, _⟩ => show win0_0.index t (0 : Fin 2) * 1000 + 1 * p'.val = t.val * 1000 + p'.val; omega
  | ⟨1, _⟩ => show win0_0.index t (1 : Fin 2) * 128 + 1 * k.val = k.val; omega

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v10).slice (win0_2.rect t)).set ↔ _
  rw [View.set_slice_whole, Rect.mem_set_unit]
  exact Iff.rfl

/-- Row `r` of the output is written by point `r / 1000`: the blocks cover the array. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 1000, lt_of_lt_of_eq (by omega : (i 0).val / 1000 < 100) N_0.symm⟩, flush0_2 _, ?_⟩
  rw [mem_blk0]
  obtain ⟨-, -, -, -, i20, i21⟩ := idx0 ⟨(i 0).val / 1000, lt_of_lt_of_eq (by omega : (i 0).val / 1000 < 100) N_0.symm⟩
  intro a
  match a with
  | ⟨0, _⟩ =>
    show win0_2.index _ (0 : Fin 2) * 1000 ≤ (i 0).val ∧ (i 0).val < win0_2.index _ (0 : Fin 2) * 1000 + 1000
    rw [i20]; show (i 0).val / 1000 * 1000 ≤ (i 0).val ∧ (i 0).val < (i 0).val / 1000 * 1000 + 1000; omega
  | ⟨1, _⟩ =>
    show win0_2.index _ (1 : Fin 2) * 128 ≤ (i 1).val ∧ (i 1).val < win0_2.index _ (1 : Fin 2) * 128 + 128
    rw [i21]; omega

/-- THE OUTPUT ARRAY after the launch: `lin` of the node states and the matrix as the launch found them. -/
theorem final0 (c : Dev nD) : (dat0 V c).arrAt 2 cfg0.N = Cert.GatedGraph.lin (V c main_arg0) (V c main_v9) :=
  (dat0 V c).arrAt_eq_of_cover 2 _ (fun t _ => flushed0 V c t) cover0

end Cert.KernelIdeal.Fold

end
-- ==== Proof.Region1.lean ====
/-
  The first round's GRU cell as a grid launch. The launch has 100 points; point `t` reads rows
  1000·t … 1000·t + 999 of the aggregated messages and of the old node states, the two 128 × 384 matrices and the
  two bias rows whole, and writes the same rows of the new node states. Whatever the buffers hold when the launch
  is entered (`V`), the output array ends as `cell` of those six arrays: each written block is the block of
  that one function, and the 100 blocks cover the array.
-/
import proofs.«102423_j56985626083974_1_alg».proof.Proof.Gen.KernelIdeal.Frame
import proofs.«102423_j56985626083974_1_alg».proof.Proof.Pointwise
import Idealize.ShloMosaic.Lib.Pipeline.Value
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- A window's block offset `(0, 0)` is the zero offset. -/
theorem zeroOff1 : (![0, 0] : Fin 2 → Nat) = fun _ => 0 := funext fun a => by fin_cases a <;> rfl

/-- The index maps over the grid: the two node arrays' and the output's blocks move down with the point, the
    matrices and bias rows stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of `cell` of the arrays as the launch finds them. -/
theorem flushed1 (c : Dev nD) (t : Fin cfg1.N) :
    (dat1 V c).flushed 6 t = ((cfg1.win 6).blk t).view.read (Elt Ideal)
      (Cert.GatedGraph.cell (V c main_v23) (V c main_arg0) (V c main_v4) (V c main_v5) (V c main_v6) (V c main_v7)) := by
  show (cfg1.win 6).cut (grid1.coords t) ((dat1 V c).after 6 t) = _
  rw [after1_6]
  unfold out1_6
  rw [View.canon_unit_zero zeroOff1]
  simp only [View.ld_unit_zero (S := S1000x128) zeroOff1, View.ld_unit_zero (S := S128x384) zeroOff1, View.ld_unit_zero (S := S1x384) zeroOff1]
  have ht : t.val < 100 := lt_of_lt_of_eq t.isLt N_1
  obtain ⟨i00, i01, i10, i11, i20, i21, i30, i31, i40, i41, i50, i51, i60, i61⟩ := idx1 t
  -- each matrix window's and each bias window's one block is the whole array
  have e2 : (iblk1 V c 2 t : S128x384.Idx → EReal) = V c main_v4 := by
    funext y
    show V c main_v4 (((cfg1.win 2).blk t).view.emb y) = V c main_v4 y
    refine congrArg _ ?_
    funext a; apply Fin.ext
    match a with
    | ⟨0, _⟩ => show win1_2.index t (0 : Fin 2) * 128 + 1 * (y 0).val = (y 0).val; omega
    | ⟨1, _⟩ => show win1_2.index t (1 : Fin 2) * 384 + 1 * (y 1).val = (y 1).val; omega
  have e3 : (iblk1 V c 3 t : S128x384.Idx → EReal) = V c main_v5 := by
    funext y
    show V c main_v5 (((cfg1.win 3).blk t).view.emb y) = V c main_v5 y
    refine congrArg _ ?_
    funext a; apply Fin.ext
    match a with
    | ⟨0, _⟩ => show win1_3.index t (0 : Fin 2) * 128 + 1 * (y 0).val = (y 0).val; omega
    | ⟨1, _⟩ => show win1_3.index t (1 : Fin 2) * 384 + 1 * (y 1).val = (y 1).val; omega
  have e4 : (iblk1 V c 4 t : S1x384.Idx → EReal) = V c main_v6 := by
    funext y
    show V c main_v6 (((cfg1.win 4).blk t).view.emb y) = V c main_v6 y
    refine congrArg _ ?_
    funext a; apply Fin.ext
    match a with
    | ⟨0, _⟩ => show win1_4.index t (0 : Fin 2) * 1 + 1 * (y 0).val = (y 0).val; omega
    | ⟨1, _⟩ => show win1_4.index t (1 : Fin 2) * 384 + 1 * (y 1).val = (y 1).val; omega
  have e5 : (iblk1 V c 5 t : S1x384.Idx → EReal) = V c main_v7 := by
    funext y
    show V c main_v7 (((cfg1.win 5).blk t).view.emb y) = V c main_v7 y
    refine congrArg _ ?_
    funext a; apply Fin.ext
    match a with
    | ⟨0, _⟩ => show win1_5.index t (0 : Fin 2) * 1 + 1 * (y 0).val = (y 0).val; omega
    | ⟨1, _⟩ => show win1_5.index t (1 : Fin 2) * 384 + 1 * (y 1).val = (y 1).val; omega
  funext j
  obtain ⟨p, q, rfl⟩ : ∃ (p : Fin 1000) (q : Fin 128), j = ix2 p q := ⟨j 0, j 1, eq_ix2 j⟩
  -- entry (p, q) of the output block sits at row 1000·t + p of the array
  have hrow : ((cfg1.win 6).blk t).view.emb (ix2 p q) = ix2 (⟨t.val * 1000 + p.val, by have := p.isLt; omega⟩ : Fin 100000) q := by
    funext a; apply Fin.ext
    match a with
    | ⟨0, _⟩ => show win1_6.index t (0 : Fin 2) * 1000 + 1 * p.val = t.val * 1000 + p.val; omega
    | ⟨1, _⟩ => show win1_6.index t (1 : Fin 2) * 128 + 1 * q.val = q.val; omega
  show k1_pay1 (iblk1 V c 0 t) (iblk1 V c 2 t) (iblk1 V c 4 t) (iblk1 V c 1 t) (iblk1 V c 3 t) (iblk1 V c 5 t) (iblk1 V c 1 t) (ix2 p q)
    = Cert.GatedGraph.cell (V c main_v23) (V c main_arg0) (V c main_v4) (V c main_v5) (V c main_v6) (V c main_v7) (((cfg1.win 6).blk t).view.emb (ix2 p q))
  rw [hrow, e2, e3, e4, e5]
  refine Cert.GatedGraph.cell_block1 (V c main_v23) (V c main_arg0) (V c main_v4) (V c main_v5) (V c main_v6) (V c main_v7)
    (iblk1 V c 0 t) (iblk1 V c 1 t) (t.val * 1000) (by omega) (fun p' k => ?_) (fun p' k => ?_) p q
  -- and so do the entries of the two node blocks
  · show V c main_v23 (((cfg1.win 0).blk t).view.emb (ix2 p' k)) = _
    refine congrArg _ ?_
    funext a; apply Fin.ext
    match a with
    | ⟨0, _⟩ => show win1_0.index t (0 : Fin 2) * 1000 + 1 * p'.val = t.val * 1000 + p'.val; omega
    | ⟨1, _⟩ => show win1_0.index t (1 : Fin 2) * 128 + 1 * k.val = k.val; omega
  · show V c main_arg0 (((cfg1.win 1).blk t).view.emb (ix2 p' k)) = _
    refine congrArg _ ?_
    funext a; apply Fin.ext
    match a with
    | ⟨0, _⟩ => show win1_1.index t (0 : Fin 2) * 1000 + 1 * p'.val = t.val * 1000 + p'.val; omega
    | ⟨1, _⟩ => show win1_1.index t (1 : Fin 2) * 128 + 1 * k.val = k.val; omega

/-- An index of the output array is in point `t`'s block iff each coordinate is in the block's range on its axis. -/
theorem mem_blk1 (t : Fin cfg1.N) (i : S100000x128.Idx) :
    i ∈ ((cfg1.win 6).blk t).view.set ↔ ∀ a : Fin 2, win1_6.index t a * S1000x128.size a ≤ (i a).val ∧ (i a).val < win1_6.index t a * S1000x128.size a + S1000x128.size a := by
  show i ∈ ((View.whole main_v24).slice (win1_6.rect t)).set ↔ _
  rw [View.set_slice_whole, Rect.mem_set_unit]
  exact Iff.rfl

/-- Row `r` of the output is written by point `r / 1000`: the blocks cover the array. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  refine ⟨⟨(i 0).val / 1000, lt_of_lt_of_eq (by omega : (i 0).val / 1000 < 100) N_1.symm⟩, flush1_6 _, ?_⟩
  rw [mem_blk1]
  obtain ⟨-, -, -, -, -, -, -, -, -, -, -, -, i60, i61⟩ := idx1 ⟨(i 0).val / 1000, lt_of_lt_of_eq (by omega : (i 0).val / 1000 < 100) N_1.symm⟩
  intro a
  match a with
  | ⟨0, _⟩ =>
    show win1_6.index _ (0 : Fin 2) * 1000 ≤ (i 0).val ∧ (i 0).val < win1_6.index _ (0 : Fin 2) * 1000 + 1000
    rw [i60]; show (i 0).val / 1000 * 1000 ≤ (i 0).val ∧ (i 0).val < (i 0).val / 1000 * 1000 + 1000; omega
  | ⟨1, _⟩ =>
    show win1_6.index _ (1 : Fin 2) * 128 ≤ (i 1).val ∧ (i 1).val < win1_6.index _ (1 : Fin 2) * 128 + 128
    rw [i61]; omega

/-- THE OUTPUT ARRAY after the launch: `cell` of the six arrays as the launch found them. -/
theorem final1 (c : Dev nD) : (dat1 V c).arrAt 6 cfg1.N
    = Cert.GatedGraph.cell (V c main_v23) (V c main_arg0) (V c main_v4) (V c main_v5) (V c main_v6) (V c main_v7) :=
  (dat1 V c).arrAt_eq_of_cover 6 _ (fun t _ => flushed1 V c t) cover1

end Cert.KernelIdeal.Fold

end
-- ==== Proof.Region2.lean ====
/-
  The second round's linear map as a grid launch. The launch has 100 points; point `t` reads rows
  1000·t … 1000·t + 999 of the node states and the whole 128 × 128 matrix, and writes the same rows of the output.
  Whatever the buffers hold when the launch is entered (`V`), the output array ends as `lin` of the node-state
  array and the matrix: each written block is the block of that one function, and the 100 blocks cover the array.
-/
import proofs.«102423_j56985626083974_1_alg».proof.Proof.Gen.KernelIdeal.Frame
import proofs.«102423_j56985626083974_1_alg».proof.Proof.Pointwise
import Idealize.ShloMosaic.Lib.Pipeline.Value
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- A window's block offset `(0, 0)` is the zero offset. -/
theorem zeroOff2 : (![0, 0] : Fin 2 → Nat) = fun _ => 0 := funext fun a => by fin_cases a <;> rfl

/-- The index maps over the grid: node-state and output blocks move down with the point, the matrix stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `lin` of the arrays as the launch finds them. -/
theorem flushed2 (c : Dev nD) (t : Fin cfg2.N) :
    (dat2 V c).flushed 2 t = ((cfg2.win 2).blk t).view.read (Elt Ideal) (Cert.GatedGraph.lin (V c main_v24) (V c main_v26)) := by
  show (cfg2.win 2).cut (grid2.coords t) ((dat2 V c).after 2 t) = _
  rw [after2_2]
  unfold out2_2
  rw [View.canon_unit_zero zeroOff2]
  simp only [View.ld_unit_zero (S := S1000x128) zeroOff2, View.ld_unit_zero (S := S128x128) zeroOff2]
  have ht : t.val < 100 := lt_of_lt_of_eq t.isLt N_2
  obtain ⟨i00, i01, i10, i11, i20, i21⟩ := idx2 t
  -- the matrix window's one block is the whole matrix
  have e1 : (iblk2 V c 1 t : S128x128.Idx → EReal) = V c main_v26 := by
    funext y
    show V c main_v26 (((cfg2.win 1).blk t).view.emb y) = V c main_v26 y
    refine congrArg _ ?_
    funext a; apply Fin.ext
    match a with
    | ⟨0, _⟩ => show win2_1.index t (0 : Fin 2) * 128 + 1 * (y 0).val = (y 0).val; omega
    | ⟨1, _⟩ => show win2_1.index t (1 : Fin 2) * 128 + 1 * (y 1).val = (y 1).val; omega
  funext j
  obtain ⟨p, q, rfl⟩ : ∃ (p : Fin 1000) (q : Fin 128), j = ix2 p q := ⟨j 0, j 1, eq_ix2 j⟩
  -- entry (p, q) of the output block sits at row 1000·t + p of the array
  have hrow : ((cfg2.win 2).blk t).view.emb (ix2 p q) = ix2 (⟨t.val * 1000 + p.val, by have := p.isLt; omega⟩ : Fin 100000) q := by
    funext a; apply Fin.ext
    match a with
    | ⟨0, _⟩ => show win2_2.index t (0 : Fin 2) * 1000 + 1 * p.val = t.val * 1000 + p.val; omega
    | ⟨1, _⟩ => show win2_2.index t (1 : Fin 2) * 128 + 1 * q.val = q.val; omega
  show k2_pay1 (iblk2 V c 0 t) (iblk2 V c 1 t) (ix2 p q) = Cert.GatedGraph.lin (V c main_v24) (V c main_v26) (((cfg2.win 2).blk t).view.emb (ix2 p q))
  rw [hrow, e1]
  refine Cert.GatedGraph.lin_block2 (V c main_v24) (V c main_v26) (iblk2 V c 0 t) (t.val * 1000) (by omega) (fun p' k => ?_) p q
  -- and so does entry (p', k) of the node-state block
  show V c main_v24 (((cfg2.win 0).blk t).view.emb (ix2 p' k)) = _
  refine congrArg _ ?_
  funext a; apply Fin.ext
  match a with
  | ⟨0, _⟩ => show win2_0.index t (0 : Fin 2) * 1000 + 1 * p'.val = t.val * 1000 + p'.val; omega
  | ⟨1, _⟩ => show win2_0.index t (1 : Fin 2) * 128 + 1 * k.val = k.val; omega

/-- An index of the output array is in point `t`'s block iff each coordinate is in the block's range on its axis. -/
theorem mem_blk2 (t : Fin cfg2.N) (i : S100000x128.Idx) :
    i ∈ ((cfg2.win 2).blk t).view.set ↔ ∀ a : Fin 2, win2_2.index t a * S1000x128.size a ≤ (i a).val ∧ (i a).val < win2_2.index t a * S1000x128.size a + S1000x128.size a := by
  show i ∈ ((View.whole main_v27).slice (win2_2.rect t)).set ↔ _
  rw [View.set_slice_whole, Rect.mem_set_unit]
  exact Iff.rfl

/-- Row `r` of the output is written by point `r / 1000`: the blocks cover the array. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  refine ⟨⟨(i 0).val / 1000, lt_of_lt_of_eq (by omega : (i 0).val / 1000 < 100) N_2.symm⟩, flush2_2 _, ?_⟩
  rw [mem_blk2]
  obtain ⟨-, -, -, -, i20, i21⟩ := idx2 ⟨(i 0).val / 1000, lt_of_lt_of_eq (by omega : (i 0).val / 1000 < 100) N_2.symm⟩
  intro a
  match a with
  | ⟨0, _⟩ =>
    show win2_2.index _ (0 : Fin 2) * 1000 ≤ (i 0).val ∧ (i 0).val < win2_2.index _ (0 : Fin 2) * 1000 + 1000
    rw [i20]; show (i 0).val / 1000 * 1000 ≤ (i 0).val ∧ (i 0).val < (i 0).val / 1000 * 1000 + 1000; omega
  | ⟨1, _⟩ =>
    show win2_2.index _ (1 : Fin 2) * 128 ≤ (i 1).val ∧ (i 1).val < win2_2.index _ (1 : Fin 2) * 128 + 128
    rw [i21]; omega

/-- THE OUTPUT ARRAY after the launch: `lin` of the node states and the matrix as the launch found them. -/
theorem final2 (c : Dev nD) : (dat2 V c).arrAt 2 cfg2.N = Cert.GatedGraph.lin (V c main_v24) (V c main_v26) :=
  (dat2 V c).arrAt_eq_of_cover 2 _ (fun t _ => flushed2 V c t) cover2

end Cert.KernelIdeal.Fold

end
-- ==== Proof.Region3.lean ====
/-
  The second round's GRU cell as a grid launch. The launch has 100 points; point `t` reads rows
  1000·t … 1000·t + 999 of the aggregated messages and of the old node states, the two 128 × 384 matrices and the
  two bias rows whole, and writes the same rows of the new node states. Whatever the buffers hold when the launch
  is entered (`V`), the output array ends as `cell` of those six arrays: each written block is the block of
  that one function, and the 100 blocks cover the array.
-/
import proofs.«102423_j56985626083974_1_alg».proof.Proof.Gen.KernelIdeal.Frame
import proofs.«102423_j56985626083974_1_alg».proof.Proof.Pointwise
import Idealize.ShloMosaic.Lib.Pipeline.Value
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- A window's block offset `(0, 0)` is the zero offset. -/
theorem zeroOff3 : (![0, 0] : Fin 2 → Nat) = fun _ => 0 := funext fun a => by fin_cases a <;> rfl

/-- The index maps over the grid: the two node arrays' and the output's blocks move down with the point, the
    matrices and bias rows stay. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What point `t` writes back is block `t` of `cell` of the arrays as the launch finds them. -/
theorem flushed3 (c : Dev nD) (t : Fin cfg3.N) :
    (dat3 V c).flushed 6 t = ((cfg3.win 6).blk t).view.read (Elt Ideal)
      (Cert.GatedGraph.cell (V c main_v40) (V c main_v24) (V c main_v4) (V c main_v5) (V c main_v6) (V c main_v7)) := by
  show (cfg3.win 6).cut (grid3.coords t) ((dat3 V c).after 6 t) = _
  rw [after3_6]
  unfold out3_6
  rw [View.canon_unit_zero zeroOff3]
  simp only [View.ld_unit_zero (S := S1000x128) zeroOff3, View.ld_unit_zero (S := S128x384) zeroOff3, View.ld_unit_zero (S := S1x384) zeroOff3]
  have ht : t.val < 100 := lt_of_lt_of_eq t.isLt N_3
  obtain ⟨i00, i01, i10, i11, i20, i21, i30, i31, i40, i41, i50, i51, i60, i61⟩ := idx3 t
  -- each matrix window's and each bias window's one block is the whole array
  have e2 : (iblk3 V c 2 t : S128x384.Idx → EReal) = V c main_v4 := by
    funext y
    show V c main_v4 (((cfg3.win 2).blk t).view.emb y) = V c main_v4 y
    refine congrArg _ ?_
    funext a; apply Fin.ext
    match a with
    | ⟨0, _⟩ => show win3_2.index t (0 : Fin 2) * 128 + 1 * (y 0).val = (y 0).val; omega
    | ⟨1, _⟩ => show win3_2.index t (1 : Fin 2) * 384 + 1 * (y 1).val = (y 1).val; omega
  have e3 : (iblk3 V c 3 t : S128x384.Idx → EReal) = V c main_v5 := by
    funext y
    show V c main_v5 (((cfg3.win 3).blk t).view.emb y) = V c main_v5 y
    refine congrArg _ ?_
    funext a; apply Fin.ext
    match a with
    | ⟨0, _⟩ => show win3_3.index t (0 : Fin 2) * 128 + 1 * (y 0).val = (y 0).val; omega
    | ⟨1, _⟩ => show win3_3.index t (1 : Fin 2) * 384 + 1 * (y 1).val = (y 1).val; omega
  have e4 : (iblk3 V c 4 t : S1x384.Idx → EReal) = V c main_v6 := by
    funext y
    show V c main_v6 (((cfg3.win 4).blk t).view.emb y) = V c main_v6 y
    refine congrArg _ ?_
    funext a; apply Fin.ext
    match a with
    | ⟨0, _⟩ => show win3_4.index t (0 : Fin 2) * 1 + 1 * (y 0).val = (y 0).val; omega
    | ⟨1, _⟩ => show win3_4.index t (1 : Fin 2) * 384 + 1 * (y 1).val = (y 1).val; omega
  have e5 : (iblk3 V c 5 t : S1x384.Idx → EReal) = V c main_v7 := by
    funext y
    show V c main_v7 (((cfg3.win 5).blk t).view.emb y) = V c main_v7 y
    refine congrArg _ ?_
    funext a; apply Fin.ext
    match a with
    | ⟨0, _⟩ => show win3_5.index t (0 : Fin 2) * 1 + 1 * (y 0).val = (y 0).val; omega
    | ⟨1, _⟩ => show win3_5.index t (1 : Fin 2) * 384 + 1 * (y 1).val = (y 1).val; omega
  funext j
  obtain ⟨p, q, rfl⟩ : ∃ (p : Fin 1000) (q : Fin 128), j = ix2 p q := ⟨j 0, j 1, eq_ix2 j⟩
  -- entry (p, q) of the output block sits at row 1000·t + p of the array
  have hrow : ((cfg3.win 6).blk t).view.emb (ix2 p q) = ix2 (⟨t.val * 1000 + p.val, by have := p.isLt; omega⟩ : Fin 100000) q := by
    funext a; apply Fin.ext
    match a with
    | ⟨0, _⟩ => show win3_6.index t (0 : Fin 2) * 1000 + 1 * p.val = t.val * 1000 + p.val; omega
    | ⟨1, _⟩ => show win3_6.index t (1 : Fin 2) * 128 + 1 * q.val = q.val; omega
  show k3_pay1 (iblk3 V c 0 t) (iblk3 V c 2 t) (iblk3 V c 4 t) (iblk3 V c 1 t) (iblk3 V c 3 t) (iblk3 V c 5 t) (iblk3 V c 1 t) (ix2 p q)
    = Cert.GatedGraph.cell (V c main_v40) (V c main_v24) (V c main_v4) (V c main_v5) (V c main_v6) (V c main_v7) (((cfg3.win 6).blk t).view.emb (ix2 p q))
  rw [hrow, e2, e3, e4, e5]
  refine Cert.GatedGraph.cell_block3 (V c main_v40) (V c main_v24) (V c main_v4) (V c main_v5) (V c main_v6) (V c main_v7)
    (iblk3 V c 0 t) (iblk3 V c 1 t) (t.val * 1000) (by omega) (fun p' k => ?_) (fun p' k => ?_) p q
  -- and so do the entries of the two node blocks
  · show V c main_v40 (((cfg3.win 0).blk t).view.emb (ix2 p' k)) = _
    refine congrArg _ ?_
    funext a; apply Fin.ext
    match a with
    | ⟨0, _⟩ => show win3_0.index t (0 : Fin 2) * 1000 + 1 * p'.val = t.val * 1000 + p'.val; omega
    | ⟨1, _⟩ => show win3_0.index t (1 : Fin 2) * 128 + 1 * k.val = k.val; omega
  · show V c main_v24 (((cfg3.win 1).blk t).view.emb (ix2 p' k)) = _
    refine congrArg _ ?_
    funext a; apply Fin.ext
    match a with
    | ⟨0, _⟩ => show win3_1.index t (0 : Fin 2) * 1000 + 1 * p'.val = t.val * 1000 + p'.val; omega
    | ⟨1, _⟩ => show win3_1.index t (1 : Fin 2) * 128 + 1 * k.val = k.val; omega

/-- An index of the output array is in point `t`'s block iff each coordinate is in the block's range on its axis. -/
theorem mem_blk3 (t : Fin cfg3.N) (i : S100000x128.Idx) :
    i ∈ ((cfg3.win 6).blk t).view.set ↔ ∀ a : Fin 2, win3_6.index t a * S1000x128.size a ≤ (i a).val ∧ (i a).val < win3_6.index t a * S1000x128.size a + S1000x128.size a := by
  show i ∈ ((View.whole main_v41).slice (win3_6.rect t)).set ↔ _
  rw [View.set_slice_whole, Rect.mem_set_unit]
  exact Iff.rfl

/-- Row `r` of the output is written by point `r / 1000`: the blocks cover the array. -/
theorem cover3 (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  refine ⟨⟨(i 0).val / 1000, lt_of_lt_of_eq (by omega : (i 0).val / 1000 < 100) N_3.symm⟩, flush3_6 _, ?_⟩
  rw [mem_blk3]
  obtain ⟨-, -, -, -, -, -, -, -, -, -, -, -, i60, i61⟩ := idx3 ⟨(i 0).val / 1000, lt_of_lt_of_eq (by omega : (i 0).val / 1000 < 100) N_3.symm⟩
  intro a
  match a with
  | ⟨0, _⟩ =>
    show win3_6.index _ (0 : Fin 2) * 1000 ≤ (i 0).val ∧ (i 0).val < win3_6.index _ (0 : Fin 2) * 1000 + 1000
    rw [i60]; show (i 0).val / 1000 * 1000 ≤ (i 0).val ∧ (i 0).val < (i 0).val / 1000 * 1000 + 1000; omega
  | ⟨1, _⟩ =>
    show win3_6.index _ (1 : Fin 2) * 128 ≤ (i 1).val ∧ (i 1).val < win3_6.index _ (1 : Fin 2) * 128 + 128
    rw [i61]; omega

/-- THE OUTPUT ARRAY after the launch: `cell` of the six arrays as the launch found them. -/
theorem final3 (c : Dev nD) : (dat3 V c).arrAt 6 cfg3.N
    = Cert.GatedGraph.cell (V c main_v40) (V c main_v24) (V c main_v4) (V c main_v5) (V c main_v6) (V c main_v7) :=
  (dat3 V c).arrAt_eq_of_cover 6 _ (fun t _ => flushed3 V c t) cover3

end Cert.KernelIdeal.Fold

end
-- ==== Proof.Fold.lean ====
/-
  The kernel program's result is `net` of its launch contents. The buffer contents at the eight boundaries of
  @main are followed from the launch: a stretch of host operations computes its results from the contents it
  starts from and leaves every other buffer alone; a grid launch leaves its output array at the whole-array
  function of its input arrays (the four launch modules) and every other buffer alone. Carried along are the
  edge rows, the transposed GRU matrices and bias rows (computed once, before the first launch) and the inputs.
-/
import proofs.«102423_j56985626083974_1_alg».proof.Proof.Gen.KernelIdeal.Frame
import proofs.«102423_j56985626083974_1_alg».proof.Proof.Pointwise
import proofs.«102423_j56985626083974_1_alg».proof.Proof.Region0
import proofs.«102423_j56985626083974_1_alg».proof.Proof.Region1
import proofs.«102423_j56985626083974_1_alg».proof.Proof.Region2
import proofs.«102423_j56985626083974_1_alg».proof.Proof.Region3
import Idealize.ShloMosaic.Lib.StableHlo.Run
import Idealize.ShloMosaic.Lib.Pipeline.Value
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.GatedGraph (lin aggregate cell round net weight0 weight1 edgeRow0 edgeRow1 wT biasRow)
open Idealize.ShloMosaic.StableHlo (after_cons after_nil)

variable (m : (ℓ : Loc nD τ sig) → Buf (Elt Ideal) ℓ) (ρ : Dev nD → PrngReg) (c : Dev nD)

/-- A bias vector reshaped to one row is the bias vector broadcast to one row. -/
theorem biasRow_reshape (b : FVec Ideal S384 .f32) (h : S384.ShapeCasts S1x384) : shapeCast S1x384 b h = biasRow b := by
  funext j
  unfold Cert.GatedGraph.biasRow
  refine (shapeCast_addUnit_apply ![384] b h j).trans (Eq.symm ?_)
  refine broadcastInDim_apply _ _ b j (fun a => j a.succ) (fun a => ?_)
  match a with
  | ⟨0, _⟩ => rfl

/-- The node states after the first round, from the launch contents. -/
def h1 : Cert.GatedGraph.States :=
  round (m ((c.tc : Thread nD τ).loc main_arg0)) (weight0 (m ((c.tc : Thread nD τ).loc main_arg3))) (edgeRow0 (m ((c.tc : Thread nD τ).loc main_arg1))) (edgeRow1 (m ((c.tc : Thread nD τ).loc main_arg1))) (m ((c.tc : Thread nD τ).loc main_arg2)) (wT (m ((c.tc : Thread nD τ).loc main_arg4))) (wT (m ((c.tc : Thread nD τ).loc main_arg5))) (biasRow (m ((c.tc : Thread nD τ).loc main_arg6))) (biasRow (m ((c.tc : Thread nD τ).loc main_arg7)))

/-! ## Boundary 1: after the host operations before the first launch -/
theorem s1_main_v1 : W1 m ρ c (Proc.devRef .tc main_v1) = edgeRow0 (m ((c.tc : Thread nD τ).loc main_arg1)) := by
  show Idealize.ShloMosaic.StableHlo.after hostOps0 (W0 m ρ c) _ = _
  after_results
  rfl
theorem s1_main_v3 : W1 m ρ c (Proc.devRef .tc main_v3) = edgeRow1 (m ((c.tc : Thread nD τ).loc main_arg1)) := by
  show Idealize.ShloMosaic.StableHlo.after hostOps0 (W0 m ρ c) _ = _
  after_results
  rfl
theorem s1_main_v4 : W1 m ρ c (Proc.devRef .tc main_v4) = wT (m ((c.tc : Thread nD τ).loc main_arg4)) := by
  show Idealize.ShloMosaic.StableHlo.after hostOps0 (W0 m ρ c) _ = _
  after_results
  rfl
theorem s1_main_v5 : W1 m ρ c (Proc.devRef .tc main_v5) = wT (m ((c.tc : Thread nD τ).loc main_arg5)) := by
  show Idealize.ShloMosaic.StableHlo.after hostOps0 (W0 m ρ c) _ = _
  after_results
  rfl
theorem s1_main_arg0 : W1 m ρ c (Proc.devRef .tc main_arg0) = (m ((c.tc : Thread nD τ).loc main_arg0)) := by
  show Idealize.ShloMosaic.StableHlo.after hostOps0 (W0 m ρ c) _ = _
  after_results
theorem s1_main_arg2 : W1 m ρ c (Proc.devRef .tc main_arg2) = (m ((c.tc : Thread nD τ).loc main_arg2)) := by
  show Idealize.ShloMosaic.StableHlo.after hostOps0 (W0 m ρ c) _ = _
  after_results
theorem s1_main_arg3 : W1 m ρ c (Proc.devRef .tc main_arg3) = (m ((c.tc : Thread nD τ).loc main_arg3)) := by
  show Idealize.ShloMosaic.StableHlo.after hostOps0 (W0 m ρ c) _ = _
  after_results
theorem s1_main_v6 : W1 m ρ c (Proc.devRef .tc main_v6) = biasRow (m ((c.tc : Thread nD τ).loc main_arg6)) := by
  show Idealize.ShloMosaic.StableHlo.after hostOps0 (W0 m ρ c) _ = _
  after_results
  exact biasRow_reshape _ _
theorem s1_main_v7 : W1 m ρ c (Proc.devRef .tc main_v7) = biasRow (m ((c.tc : Thread nD τ).loc main_arg7)) := by
  show Idealize.ShloMosaic.StableHlo.after hostOps0 (W0 m ρ c) _ = _
  after_results
  exact biasRow_reshape _ _
theorem s1_main_v9 : W1 m ρ c (Proc.devRef .tc main_v9) = weight0 (m ((c.tc : Thread nD τ).loc main_arg3)) := by
  show Idealize.ShloMosaic.StableHlo.after hostOps0 (W0 m ρ c) _ = _
  after_results
  rfl

/-! ## Boundary 2: after the first linear map -/
theorem s2_main_v1 : W2 m ρ c (Proc.devRef .tc main_v1) = edgeRow0 (m ((c.tc : Thread nD τ).loc main_arg1)) := (W2_of_ne m ρ c main_v1 (by decide)).trans (s1_main_v1 m ρ c)
theorem s2_main_v3 : W2 m ρ c (Proc.devRef .tc main_v3) = edgeRow1 (m ((c.tc : Thread nD τ).loc main_arg1)) := (W2_of_ne m ρ c main_v3 (by decide)).trans (s1_main_v3 m ρ c)
theorem s2_main_v4 : W2 m ρ c (Proc.devRef .tc main_v4) = wT (m ((c.tc : Thread nD τ).loc main_arg4)) := (W2_of_ne m ρ c main_v4 (by decide)).trans (s1_main_v4 m ρ c)
theorem s2_main_v5 : W2 m ρ c (Proc.devRef .tc main_v5) = wT (m ((c.tc : Thread nD τ).loc main_arg5)) := (W2_of_ne m ρ c main_v5 (by decide)).trans (s1_main_v5 m ρ c)
theorem s2_main_v6 : W2 m ρ c (Proc.devRef .tc main_v6) = biasRow (m ((c.tc : Thread nD τ).loc main_arg6)) := (W2_of_ne m ρ c main_v6 (by decide)).trans (s1_main_v6 m ρ c)
theorem s2_main_v7 : W2 m ρ c (Proc.devRef .tc main_v7) = biasRow (m ((c.tc : Thread nD τ).loc main_arg7)) := (W2_of_ne m ρ c main_v7 (by decide)).trans (s1_main_v7 m ρ c)
theorem s2_main_arg2 : W2 m ρ c (Proc.devRef .tc main_arg2) = (m ((c.tc : Thread nD τ).loc main_arg2)) := (W2_of_ne m ρ c main_arg2 (by decide)).trans (s1_main_arg2 m ρ c)
theorem s2_main_arg3 : W2 m ρ c (Proc.devRef .tc main_arg3) = (m ((c.tc : Thread nD τ).loc main_arg3)) := (W2_of_ne m ρ c main_arg3 (by decide)).trans (s1_main_arg3 m ρ c)
theorem s2_main_arg0 : W2 m ρ c (Proc.devRef .tc main_arg0) = (m ((c.tc : Thread nD τ).loc main_arg0)) :=
  ((W2_arr m ρ c 0).trans (((dat0 (V1 m ρ) c).arrAt_in 0 rfl _).trans (A_eq0 (V1 m ρ) c 0))).trans (s1_main_arg0 m ρ c)
theorem s2_main_v10 : W2 m ρ c (Proc.devRef .tc main_v10) = lin (m ((c.tc : Thread nD τ).loc main_arg0)) (weight0 (m ((c.tc : Thread nD τ).loc main_arg3))) :=
  (W2_arr m ρ c 2).trans ((final0 (V1 m ρ) c).trans (by
    rw [show V1 m ρ c main_arg0 = _ from s1_main_arg0 m ρ c, show V1 m ρ c main_v9 = _ from s1_main_v9 m ρ c]))

/-! ## Boundary 3: after the first edge stage -/
theorem s3_main_v1 : W3 m ρ c (Proc.devRef .tc main_v1) = edgeRow0 (m ((c.tc : Thread nD τ).loc main_arg1)) := by
  show Idealize.ShloMosaic.StableHlo.after hostOps1 (W2 m ρ c) _ = _
  after_results
  exact s2_main_v1 m ρ c
theorem s3_main_v3 : W3 m ρ c (Proc.devRef .tc main_v3) = edgeRow1 (m ((c.tc : Thread nD τ).loc main_arg1)) := by
  show Idealize.ShloMosaic.StableHlo.after hostOps1 (W2 m ρ c) _ = _
  after_results
  exact s2_main_v3 m ρ c
theorem s3_main_v4 : W3 m ρ c (Proc.devRef .tc main_v4) = wT (m ((c.tc : Thread nD τ).loc main_arg4)) := by
  show Idealize.ShloMosaic.StableHlo.after hostOps1 (W2 m ρ c) _ = _
  after_results
  exact s2_main_v4 m ρ c
theorem s3_main_v5 : W3 m ρ c (Proc.devRef .tc main_v5) = wT (m ((c.tc : Thread nD τ).loc main_arg5)) := by
  show Idealize.ShloMosaic.StableHlo.after hostOps1 (W2 m ρ c) _ = _
  after_results
  exact s2_main_v5 m ρ c
theorem s3_main_v6 : W3 m ρ c (Proc.devRef .tc main_v6) = biasRow (m ((c.tc : Thread nD τ).loc main_arg6)) := by
  show Idealize.ShloMosaic.StableHlo.after hostOps1 (W2 m ρ c) _ = _
  after_results
  exact s2_main_v6 m ρ c
theorem s3_main_v7 : W3 m ρ c (Proc.devRef .tc main_v7) = biasRow (m ((c.tc : Thread nD τ).loc main_arg7)) := by
  show Idealize.ShloMosaic.StableHlo.after hostOps1 (W2 m ρ c) _ = _
  after_results
  exact s2_main_v7 m ρ c
theorem s3_main_arg2 : W3 m ρ c (Proc.devRef .tc main_arg2) = (m ((c.tc : Thread nD τ).loc main_arg2)) := by
  show Idealize.ShloMosaic.StableHlo.after hostOps1 (W2 m ρ c) _ = _
  after_results
  exact s2_main_arg2 m ρ c
theorem s3_main_arg3 : W3 m ρ c (Proc.devRef .tc main_arg3) = (m ((c.tc : Thread nD τ).loc main_arg3)) := by
  show Idealize.ShloMosaic.StableHlo.after hostOps1 (W2 m ρ c) _ = _
  after_results
  exact s2_main_arg3 m ρ c
theorem s3_main_arg0 : W3 m ρ c (Proc.devRef .tc main_arg0) = (m ((c.tc : Thread nD τ).loc main_arg0)) := by
  show Idealize.ShloMosaic.StableHlo.after hostOps1 (W2 m ρ c) _ = _
  after_results
  exact s2_main_arg0 m ρ c
set_option maxHeartbeats 1600000 in
theorem s3_main_v23 : W3 m ρ c (Proc.devRef .tc main_v23) = aggregate (lin (m ((c.tc : Thread nD τ).loc main_arg0)) (weight0 (m ((c.tc : Thread nD τ).loc main_arg3)))) (edgeRow0 (m ((c.tc : Thread nD τ).loc main_arg1))) (edgeRow1 (m ((c.tc : Thread nD τ).loc main_arg1))) (m ((c.tc : Thread nD τ).loc main_arg2)) := by
  show Idealize.ShloMosaic.StableHlo.after hostOps1 (W2 m ρ c) _ = _
  after_results_simp
  rw [s2_main_v10 m ρ c, s2_main_v1 m ρ c, s2_main_v3 m ρ c, s2_main_arg2 m ρ c]
  rfl

/-! ## Boundary 4: after the first GRU cell -/
theorem s4_main_v1 : W4 m ρ c (Proc.devRef .tc main_v1) = edgeRow0 (m ((c.tc : Thread nD τ).loc main_arg1)) := (W4_of_ne m ρ c main_v1 (by decide)).trans (s3_main_v1 m ρ c)
theorem s4_main_v3 : W4 m ρ c (Proc.devRef .tc main_v3) = edgeRow1 (m ((c.tc : Thread nD τ).loc main_arg1)) := (W4_of_ne m ρ c main_v3 (by decide)).trans (s3_main_v3 m ρ c)
theorem s4_main_v4 : W4 m ρ c (Proc.devRef .tc main_v4) = wT (m ((c.tc : Thread nD τ).loc main_arg4)) :=
  ((W4_arr m ρ c 2).trans (((dat1 (V3 m ρ) c).arrAt_in 2 rfl _).trans (A_eq1 (V3 m ρ) c 2))).trans (s3_main_v4 m ρ c)
theorem s4_main_v5 : W4 m ρ c (Proc.devRef .tc main_v5) = wT (m ((c.tc : Thread nD τ).loc main_arg5)) :=
  ((W4_arr m ρ c 3).trans (((dat1 (V3 m ρ) c).arrAt_in 3 rfl _).trans (A_eq1 (V3 m ρ) c 3))).trans (s3_main_v5 m ρ c)
theorem s4_main_v6 : W4 m ρ c (Proc.devRef .tc main_v6) = biasRow (m ((c.tc : Thread nD τ).loc main_arg6)) :=
  ((W4_arr m ρ c 4).trans (((dat1 (V3 m ρ) c).arrAt_in 4 rfl _).trans (A_eq1 (V3 m ρ) c 4))).trans (s3_main_v6 m ρ c)
theorem s4_main_v7 : W4 m ρ c (Proc.devRef .tc main_v7) = biasRow (m ((c.tc : Thread nD τ).loc main_arg7)) :=
  ((W4_arr m ρ c 5).trans (((dat1 (V3 m ρ) c).arrAt_in 5 rfl _).trans (A_eq1 (V3 m ρ) c 5))).trans (s3_main_v7 m ρ c)
theorem s4_main_arg2 : W4 m ρ c (Proc.devRef .tc main_arg2) = (m ((c.tc : Thread nD τ).loc main_arg2)) := (W4_of_ne m ρ c main_arg2 (by decide)).trans (s3_main_arg2 m ρ c)
theorem s4_main_arg3 : W4 m ρ c (Proc.devRef .tc main_arg3) = (m ((c.tc : Thread nD τ).loc main_arg3)) := (W4_of_ne m ρ c main_arg3 (by decide)).trans (s3_main_arg3 m ρ c)
theorem s4_main_v24 : W4 m ρ c (Proc.devRef .tc main_v24) = h1 m c :=
  (W4_arr m ρ c 6).trans ((final1 (V3 m ρ) c).trans (by
    rw [show V3 m ρ c main_v23 = _ from s3_main_v23 m ρ c, show V3 m ρ c main_arg0 = _ from s3_main_arg0 m ρ c,
      show V3 m ρ c main_v4 = _ from s3_main_v4 m ρ c, show V3 m ρ c main_v5 = _ from s3_main_v5 m ρ c,
      show V3 m ρ c main_v6 = _ from s3_main_v6 m ρ c, show V3 m ρ c main_v7 = _ from s3_main_v7 m ρ c]
    rfl))

/-! ## Boundary 5: after the second layer's matrix is cut out -/
theorem s5_main_v1 : W5 m ρ c (Proc.devRef .tc main_v1) = edgeRow0 (m ((c.tc : Thread nD τ).loc main_arg1)) := by
  show Idealize.ShloMosaic.StableHlo.after hostOps2 (W4 m ρ c) _ = _
  after_results
  exact s4_main_v1 m ρ c
theorem s5_main_v3 : W5 m ρ c (Proc.devRef .tc main_v3) = edgeRow1 (m ((c.tc : Thread nD τ).loc main_arg1)) := by
  show Idealize.ShloMosaic.StableHlo.after hostOps2 (W4 m ρ c) _ = _
  after_results
  exact s4_main_v3 m ρ c
theorem s5_main_v4 : W5 m ρ c (Proc.devRef .tc main_v4) = wT (m ((c.tc : Thread nD τ).loc main_arg4)) := by
  show Idealize.ShloMosaic.StableHlo.after hostOps2 (W4 m ρ c) _ = _
  after_results
  exact s4_main_v4 m ρ c
theorem s5_main_v5 : W5 m ρ c (Proc.devRef .tc main_v5) = wT (m ((c.tc : Thread nD τ).loc main_arg5)) := by
  show Idealize.ShloMosaic.StableHlo.after hostOps2 (W4 m ρ c) _ = _
  after_results
  exact s4_main_v5 m ρ c
theorem s5_main_v6 : W5 m ρ c (Proc.devRef .tc main_v6) = biasRow (m ((c.tc : Thread nD τ).loc main_arg6)) := by
  show Idealize.ShloMosaic.StableHlo.after hostOps2 (W4 m ρ c) _ = _
  after_results
  exact s4_main_v6 m ρ c
theorem s5_main_v7 : W5 m ρ c (Proc.devRef .tc main_v7) = biasRow (m ((c.tc : Thread nD τ).loc main_arg7)) := by
  show Idealize.ShloMosaic.StableHlo.after hostOps2 (W4 m ρ c) _ = _
  after_results
  exact s4_main_v7 m ρ c
theorem s5_main_arg2 : W5 m ρ c (Proc.devRef .tc main_arg2) = (m ((c.tc : Thread nD τ).loc main_arg2)) := by
  show Idealize.ShloMosaic.StableHlo.after hostOps2 (W4 m ρ c) _ = _
  after_results
  exact s4_main_arg2 m ρ c
theorem s5_main_v24 : W5 m ρ c (Proc.devRef .tc main_v24) = h1 m c := by
  show Idealize.ShloMosaic.StableHlo.after hostOps2 (W4 m ρ c) _ = _
  after_results
  exact s4_main_v24 m ρ c
theorem s5_main_v26 : W5 m ρ c (Proc.devRef .tc main_v26) = weight1 (m ((c.tc : Thread nD τ).loc main_arg3)) := by
  show Idealize.ShloMosaic.StableHlo.after hostOps2 (W4 m ρ c) _ = _
  after_results
  rw [s4_main_arg3 m ρ c]
  rfl

/-! ## Boundary 6: after the second linear map -/
theorem s6_main_v1 : W6 m ρ c (Proc.devRef .tc main_v1) = edgeRow0 (m ((c.tc : Thread nD τ).loc main_arg1)) := (W6_of_ne m ρ c main_v1 (by decide)).trans (s5_main_v1 m ρ c)
theorem s6_main_v3 : W6 m ρ c (Proc.devRef .tc main_v3) = edgeRow1 (m ((c.tc : Thread nD τ).loc main_arg1)) := (W6_of_ne m ρ c main_v3 (by decide)).trans (s5_main_v3 m ρ c)
theorem s6_main_v4 : W6 m ρ c (Proc.devRef .tc main_v4) = wT (m ((c.tc : Thread nD τ).loc main_arg4)) := (W6_of_ne m ρ c main_v4 (by decide)).trans (s5_main_v4 m ρ c)
theorem s6_main_v5 : W6 m ρ c (Proc.devRef .tc main_v5) = wT (m ((c.tc : Thread nD τ).loc main_arg5)) := (W6_of_ne m ρ c main_v5 (by decide)).trans (s5_main_v5 m ρ c)
theorem s6_main_v6 : W6 m ρ c (Proc.devRef .tc main_v6) = biasRow (m ((c.tc : Thread nD τ).loc main_arg6)) := (W6_of_ne m ρ c main_v6 (by decide)).trans (s5_main_v6 m ρ c)
theorem s6_main_v7 : W6 m ρ c (Proc.devRef .tc main_v7) = biasRow (m ((c.tc : Thread nD τ).loc main_arg7)) := (W6_of_ne m ρ c main_v7 (by decide)).trans (s5_main_v7 m ρ c)
theorem s6_main_arg2 : W6 m ρ c (Proc.devRef .tc main_arg2) = (m ((c.tc : Thread nD τ).loc main_arg2)) := (W6_of_ne m ρ c main_arg2 (by decide)).trans (s5_main_arg2 m ρ c)
theorem s6_main_v24 : W6 m ρ c (Proc.devRef .tc main_v24) = h1 m c :=
  ((W6_arr m ρ c 0).trans (((dat2 (V5 m ρ) c).arrAt_in 0 rfl _).trans (A_eq2 (V5 m ρ) c 0))).trans (s5_main_v24 m ρ c)
theorem s6_main_v27 : W6 m ρ c (Proc.devRef .tc main_v27) = lin (h1 m c) (weight1 (m ((c.tc : Thread nD τ).loc main_arg3))) :=
  (W6_arr m ρ c 2).trans ((final2 (V5 m ρ) c).trans (by
    rw [show V5 m ρ c main_v24 = _ from s5_main_v24 m ρ c, show V5 m ρ c main_v26 = _ from s5_main_v26 m ρ c]))

/-! ## Boundary 7: after the second edge stage -/
theorem s7_main_v4 : W7 m ρ c (Proc.devRef .tc main_v4) = wT (m ((c.tc : Thread nD τ).loc main_arg4)) := by
  show Idealize.ShloMosaic.StableHlo.after hostOps3 (W6 m ρ c) _ = _
  after_results
  exact s6_main_v4 m ρ c
theorem s7_main_v5 : W7 m ρ c (Proc.devRef .tc main_v5) = wT (m ((c.tc : Thread nD τ).loc main_arg5)) := by
  show Idealize.ShloMosaic.StableHlo.after hostOps3 (W6 m ρ c) _ = _
  after_results
  exact s6_main_v5 m ρ c
theorem s7_main_v6 : W7 m ρ c (Proc.devRef .tc main_v6) = biasRow (m ((c.tc : Thread nD τ).loc main_arg6)) := by
  show Idealize.ShloMosaic.StableHlo.after hostOps3 (W6 m ρ c) _ = _
  after_results
  exact s6_main_v6 m ρ c
theorem s7_main_v7 : W7 m ρ c (Proc.devRef .tc main_v7) = biasRow (m ((c.tc : Thread nD τ).loc main_arg7)) := by
  show Idealize.ShloMosaic.StableHlo.after hostOps3 (W6 m ρ c) _ = _
  after_results
  exact s6_main_v7 m ρ c
theorem s7_main_v24 : W7 m ρ c (Proc.devRef .tc main_v24) = h1 m c := by
  show Idealize.ShloMosaic.StableHlo.after hostOps3 (W6 m ρ c) _ = _
  after_results
  exact s6_main_v24 m ρ c
set_option maxHeartbeats 1600000 in
theorem s7_main_v40 : W7 m ρ c (Proc.devRef .tc main_v40) = aggregate (lin (h1 m c) (weight1 (m ((c.tc : Thread nD τ).loc main_arg3)))) (edgeRow0 (m ((c.tc : Thread nD τ).loc main_arg1))) (edgeRow1 (m ((c.tc : Thread nD τ).loc main_arg1))) (m ((c.tc : Thread nD τ).loc main_arg2)) := by
  show Idealize.ShloMosaic.StableHlo.after hostOps3 (W6 m ρ c) _ = _
  after_results_simp
  rw [s6_main_v27 m ρ c, s6_main_v1 m ρ c, s6_main_v3 m ρ c, s6_main_arg2 m ρ c]
  rfl

/-! ## Boundary 8: after the second GRU cell -/

/-- The result buffer at the last boundary is `net` of the launch contents of the eight arguments. -/
theorem W8_result : W8 m ρ c (Proc.devRef .tc main_v41)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W8_arr m ρ c 6).trans ((final3 (V7 m ρ) c).trans (by
    rw [show V7 m ρ c main_v40 = _ from s7_main_v40 m ρ c, show V7 m ρ c main_v24 = _ from s7_main_v24 m ρ c,
      show V7 m ρ c main_v4 = _ from s7_main_v4 m ρ c, show V7 m ρ c main_v5 = _ from s7_main_v5 m ρ c,
      show V7 m ρ c main_v6 = _ from s7_main_v6 m ρ c, show V7 m ρ c main_v7 = _ from s7_main_v7 m ρ c]
    rfl))

end Cert.KernelIdeal.Fold

end
-- ==== Proof.lean ====
/-
  The certificate of two rounds of gated graph convolution (a linear map per node, a weighted gather and
  scatter-add along the edges, a GRU cell per node) computed by four grid launches among host operations, against
  the same network written in plain array operations.

  Both idealized programs end with their result at `net` of the eight inputs (Proof/Spec.lean):
  * the reference, because its operations composed in order ARE `net` (Proof/RefValue.lean);
  * the kernel program, because each launch leaves its output array at the whole-array function of its input
    arrays — `lin` for the two linear maps, `cell` for the two GRU cells, one block of 1000 node rows per grid
    point, the 100 blocks covering the array (Proof/Region0 … Region3.lean over Proof/Pointwise.lean) — and the
    host operations between the launches are the reference's own (Proof/Fold.lean over Proof/KernelRun.lean).
  No law of arithmetic beyond re-indexing a finite sum is used, so the finiteness of the inputs is never opened:
  the kernel's logistic function is by definition the quotient 1 / (1 + e^(−x)) the reference spells, a change of
  float format is the identity on the extended reals, and the row-blocked products are the same sums over the
  128 features. The three frame claims are the programs' own runs; the idealization rewrote nothing.
-/
import proofs.«102423_j56985626083974_1_alg».proof.Defs
import proofs.«102423_j56985626083974_1_alg».proof.Proof.Gen.Kernel
import proofs.«102423_j56985626083974_1_alg».proof.Proof.Gen.Kernel.Skeleton
import proofs.«102423_j56985626083974_1_alg».proof.Proof.Gen.Kernel.Launch
import proofs.«102423_j56985626083974_1_alg».proof.Proof.Gen.Kernel.Points
import proofs.«102423_j56985626083974_1_alg».proof.Proof.Gen.Kernel.Frame
import proofs.«102423_j56985626083974_1_alg».proof.Proof.Gen.KernelIdeal
import proofs.«102423_j56985626083974_1_alg».proof.Proof.Gen.KernelIdeal.Skeleton
import proofs.«102423_j56985626083974_1_alg».proof.Proof.Gen.KernelIdeal.Launch
import proofs.«102423_j56985626083974_1_alg».proof.Proof.Gen.KernelIdeal.Points
import proofs.«102423_j56985626083974_1_alg».proof.Proof.Gen.KernelIdeal.Frame
import proofs.«102423_j56985626083974_1_alg».proof.Proof.Gen.ReferenceIdeal
import proofs.«102423_j56985626083974_1_alg».proof.Proof.Gen.ReferenceIdeal.Run
import proofs.«102423_j56985626083974_1_alg».proof.Proof.Gen.Pre_finite_inputs
import proofs.«102423_j56985626083974_1_alg».proof.Proof.Spec
import proofs.«102423_j56985626083974_1_alg».proof.Proof.RefValue
import proofs.«102423_j56985626083974_1_alg».proof.Proof.KernelRun
import proofs.«102423_j56985626083974_1_alg».proof.Proof.Fold
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- And the idealized reference: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the eight inputs both idealized programs end with their result at `net` of
    those inputs. -/
theorem algebraic : Cert.algebraic_KernelIdeal_ReferenceIdeal := by
  intro m ρ m' ρ' _ hagree
  refine ⟨fun c => Cert.GatedGraph.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.W8_result m ρ c), (h c).2⟩)
      (Cert.KernelIdeal.Fold.run_result (F := Ideal) m ρ)
  · refine (θ_run Cert.ReferenceIdeal.defs _ _).mono (fun r h c => ⟨(h c).1.trans ?_, (h c).2⟩)
      (Cert.GatedGraph.ref_run m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
